-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x2 .f32) (main_arg5 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S50000x2 : Shape := ⟨2, ![50000, 2]⟩
abbrev S5000x2 : Shape := ⟨2, ![5000, 2]⟩
abbrev S850000x2 : Shape := ⟨2, ![850000, 2]⟩
abbrev S1x2 : Shape := ⟨2, ![1, 2]⟩

abbrev nBuf : Space → Nat
  | .hbm => 79
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x64, .f32⟩
  | .hbm, ⟨42, _⟩ => ⟨S850000x1, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S850000x64, .f32⟩
  | .hbm, ⟨53, _⟩ => ⟨S850000x64, .f32⟩
  | .hbm, ⟨54, _⟩ => ⟨S_, .f32⟩
  | .hbm, ⟨55, _⟩ => ⟨S50000x64, .f32⟩
  | .hbm, ⟨56, _⟩ => ⟨S850000x1, .i32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x2, .f32⟩
  | .hbm, ⟨61, _⟩ => ⟨S850000x1, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x2, .f32⟩
  | .hbm, ⟨71, _⟩ => ⟨S850000x2, .f32⟩
  | .hbm, ⟨72, _⟩ => ⟨S850000x2, .f32⟩
  | .hbm, ⟨73, _⟩ => ⟨S_, .f32⟩
  | .hbm, ⟨74, _⟩ => ⟨S50000x2, .f32⟩
  | .hbm, ⟨75, _⟩ => ⟨S850000x1, .i32⟩
  | .hbm, ⟨76, _⟩ => ⟨S50000x2, .f32⟩
  | .hbm, ⟨77, _⟩ => ⟨S1x2, .f32⟩
  | .hbm, ⟨78, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x2_S5000x2_1_0_0_1_n_n_wf : DotDims.WF S5000x64 S64x2 S5000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S50000x2.size a
  hwx2_2 : ∀ i : grid2.Coords, EltTy.bits .f32 = 32 ∨ (Rect.block (s := S50000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S50000x2.size a
  hwx3_0 : ∀ i : grid3.Coords, EltTy.bits .f32 = 32 ∨ (Rect.block (s := S50000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S50000x2.size a
  hwx3_2 : ∀ i : grid3.Coords, EltTy.bits .f32 = 32 ∨ (Rect.block (s := S50000x2) S5000x2.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x64, .f32⟩
  | .hbm, ⟨42, _⟩ => ⟨S850000x1, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S850000x64, .f32⟩
  | .hbm, ⟨53, _⟩ => ⟨S850000x64, .f32⟩
  | .hbm, ⟨54, _⟩ => ⟨S_, .f32⟩
  | .hbm, ⟨55, _⟩ => ⟨S50000x64, .f32⟩
  | .hbm, ⟨56, _⟩ => ⟨S850000x1, .i32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S50000x2, .f32⟩
  | .hbm, ⟨65, _⟩ => ⟨S850000x1, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x2, .f32⟩
  | .hbm, ⟨75, _⟩ => ⟨S850000x2, .f32⟩
  | .hbm, ⟨76, _⟩ => ⟨S850000x2, .f32⟩
  | .hbm, ⟨77, _⟩ => ⟨S_, .f32⟩
  | .hbm, ⟨78, _⟩ => ⟨S50000x2, .f32⟩
  | .hbm, ⟨79, _⟩ => ⟨S850000x1, .i32⟩
  | .hbm, ⟨80, _⟩ => ⟨S50000x2, .f32⟩
  | .hbm, ⟨81, _⟩ => ⟨S1x2, .f32⟩
  | .hbm, ⟨82, _⟩ => ⟨S50000x2, .f32⟩
  | .hbm, ⟨83, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x2_S50000x2_1_0_0_1_n_n_wf : DotDims.WF S50000x64 S64x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KRun.lean ====
/-
  The idealized kernel's run with its result named.

  @main is seven segments: the graph glue up to the first pallas_call, that call, the glue up to the second, the second
  and third calls back to back, the glue up to the fourth, and the fourth. The generated frame folds the buffer contents
  through these segments (the valuations W0 … W7) and proves that every weakly fair execution terminates with the
  argument arrays unchanged. The same launch, read at EVERY unscoped buffer instead of at the arguments only, says that
  the run ends with each such buffer at the last valuation W7 — in particular the result array.
-/
import proofs.«133802_j63608465654163_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    valuation of the fold and the argument arrays as launched. -/
theorem run_result : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Spec.lean ====
/-
  The two layers of the network as whole-array functions, entry by entry.

  A node array has 50000 rows. One layer multiplies every row by a 64 × C weight matrix (entry (r, j) is
  Σ_k x (r, k) · w (k, j)), aggregates rows over the edges (that part is the same text in both programs and is
  never opened here), adds a bias row to every row, and — in the first layer — takes the positive part.
-/
import Idealize.ShloMosaic.PureOps.Ideal.Laws
import Idealize.ShloMosaic.Lib.ValueIdx

noncomputable section

namespace Cert.Layer

open Idealize.ShloMosaic Idealize.ShloMosaic.ValueIdx

variable {F : FTy → Type} [FloatOps F]

/-- A 1 × C bias row added to every row of a 50000 × C array. -/
def addRow {C : Nat} (a : FVec F ⟨2, ![50000, C]⟩ .f32) (b : FVec F ⟨2, ![1, C]⟩ .f32) : FVec F ⟨2, ![50000, C]⟩ .f32 :=
  fun i => FloatOps.addf (a i) (b (ix2 (0 : Fin 1) (i 1)))

/-- The positive part, entry by entry: the maximum with the zero word. -/
def positivePart {C : Nat} (a : FVec F ⟨2, ![50000, C]⟩ .f32) : FVec F ⟨2, ![50000, C]⟩ .f32 :=
  fun i => FloatOps.maximumf (a i) (FloatOps.ofBits .f32 0x00000000#32)

/-- Every row of a 50000 × 64 array times a 64 × C matrix, on the extended reals: entry (r, j) is the sum over
    k of x (r, k) · w (k, j). -/
def rowsTimes {C : Nat} (x : FVec Ideal ⟨2, ![50000, 64]⟩ .f32) (w : FVec Ideal ⟨2, ![64, C]⟩ .f32) :
    FVec Ideal ⟨2, ![50000, C]⟩ .f32 :=
  fun i => ∑ k : Fin 64, x (ix2 (i 0) k) * w (ix2 k (i 1))

end Cert.Layer

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KRegion0.lean ====
/-
  The first pallas_call (rows times a weight matrix), read as ONE whole-array function of the arrays it finds.

  Point t of its ten stages rows 5000·t … 5000·t + 4999 of the 50000 × 64 operand and the whole 64 × 64 weight matrix, and
  writes back the same rows of the 50000 × 64 result. The casts to the narrower float format are the identity on the
  extended reals and the matrix unit accumulates into zeros, so entry (p, q) of the block it writes is
  Σ_k x (p, k) · w (k, q) of the blocks it loaded; the ten blocks together are rowsTimes x w of the whole arrays.
-/
import proofs.«133802_j63608465654163_1_alg».proof.Proof.Gen.KernelIdeal.Frame
import proofs.«133802_j63608465654163_1_alg».proof.Proof.Spec
import proofs.«133802_j63608465654163_1_alg».proof.Proof.LibPlainMatmul
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at one entry of the block: a plain sum of products. -/
theorem pay_entry (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact Cert.PlainMatmul.matmul_zero_apply 5000 64 64 none _ _ p q

/-- The same at an index of the block, through its two coordinates. -/
theorem pay_apply (x0 : Vec Ideal S5000x64 .f32) (x1 : Vec Ideal S64x64 .f32) (j : S5000x64.Idx) :
    k0_pay1 (F := Ideal) x0 x1 j = ∑ k : Fin 64, x0 (ix2 (j 0) k) * x1 (ix2 k (j 1)) :=
  (congrArg (k0_pay1 (F := Ideal) x0 x1) (eq_ix2 j)).trans (pay_entry x0 x1 (j 0) (j 1))

/-- A sum of 64 products, the two factors read through two paths of indices. -/
def dotAlong (x : FVec Ideal S50000x64 .f32) (w : FVec Ideal S64x64 .f32) (f : Fin 64 → S50000x64.Idx) (g : Fin 64 → S64x64.Idx) : Ideal .f32 :=
  ∑ k : Fin 64, x (f k) * w (g k)

/-- The printed index maps over the grid: the row-block index is the point, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q : Fin 10, ∃ t : Fin cfg0.N, t.val = q.val :=
  (by decide +kernel : ∀ q : Fin 10, ∃ t : Fin grid0.N, t.val = q.val)

/-- What point t writes back is block t of the whole-array function. -/
theorem flushed_eq (c : Dev nD) (t : Fin cfg0.N) :
    (dat0 V c).flushed 2 t
      = ((cfg0.win 2).blk t).view.read (Elt Ideal) (Layer.rowsTimes (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  show k0_pay1 (iblk0 V c 0 t) (iblk0 V c 1 t) j = _
  refine (pay_apply _ _ j).trans ?_
  show dotAlong (V c main_arg0) (V c main_arg2) (fun k => ((cfg0.win 0).blk t).view.emb (ix2 (j 0) k)) (fun k => ((cfg0.win 1).blk t).view.emb (ix2 k (j 1)))
      = dotAlong (V c main_arg0) (V c main_arg2) (fun k => ix2 ((((cfg0.win 2).blk t).view.emb j) 0) k) (fun k => ix2 k ((((cfg0.win 2).blk t).view.emb j) 1))
  have h0 : ∀ k : Fin 64, ((cfg0.win 0).blk t).view.emb (ix2 (j 0) k) = ix2 ((((cfg0.win 2).blk t).view.emb j) 0) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ∀ k : Fin 64, ((cfg0.win 1).blk t).view.emb (ix2 k (j 1)) = ix2 k ((((cfg0.win 2).blk t).view.emb j) 1) := fun k => by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  exact congrArg₂ (dotAlong (V c main_arg0) (V c main_arg2)) (funext h0) (funext h1)

/-- An index of the array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- The ten row blocks cover the array: row r lies in block r / 5000. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: every row of the operand times the weight matrix. -/
theorem final (c : Dev nD) :
    (dat0 V c).arrAt 2 cfg0.N = Layer.rowsTimes (V c main_arg0) (V c main_arg2) :=
  (dat0 V c).arrAt_eq_of_cover 2 _ (fun t _ => flushed_eq V c t) (cover)

end Cert.KernelIdeal.Region0

end
-- ==== Proof.KRegion1.lean ====
/-
  The second pallas_call (bias and positive part), read as ONE whole-array function of the arrays it finds.

  Its grid has ten points; point t stages rows 5000·t … 5000·t + 4999 of the aggregated array, the whole 1 × 64 bias row,
  and writes back the same rows of the result. Entry (p, q) of the block it writes is
  max (a (p, q) + b (0, q), 0) of the blocks it loaded, so the ten blocks together are
  positivePart (addRow a b) of the whole arrays.
-/
import proofs.«133802_j63608465654163_1_alg».proof.Proof.Gen.KernelIdeal.Frame
import proofs.«133802_j63608465654163_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's arithmetic at one entry of the block. -/
theorem pay_apply (x0 : Vec F S5000x64 .f32) (x1 : Vec F S1x64 .f32) (j : S5000x64.Idx) :
    k1_pay1 x0 x1 j
      = FloatOps.maximumf (FloatOps.addf (x0 j) (x1 (ix2 (0 : Fin 1) (j 1)))) (FloatOps.ofBits .f32 0x00000000#32) := by
  unfold k1_pay1
  show FloatOps.maximumf (FloatOps.addf (shapeCast S5000x64 x0 shapeCasts_S5000x64_S5000x64 j)
      (broadcastTo S5000x64 (shapeCast S1x64 x1 shapeCasts_S1x64_S1x64) broadcasts_S1x64_S5000x64 j)) _ = _
  rw [shapeCast_self, shapeCast_self,
    broadcastTo_apply x1 broadcasts_S1x64_S5000x64 j (ix2 (0 : Fin 1) (j 1))
      (fun a => by match a with | ⟨0, _⟩ => rfl | ⟨1, _⟩ => rfl)]
  rfl

/-- The printed index maps over the grid: the row-block index is the point, every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem idx_onto : ∀ q : Fin 10, ∃ t : Fin cfg1.N, t.val = q.val :=
  (by decide +kernel : ∀ q : Fin 10, ∃ t : Fin grid1.N, t.val = q.val)

/-- What point t writes back is block t of the whole-array function. -/
theorem flushed_eq (c : Dev nD) (t : Fin cfg1.N) :
    (dat1 V c).flushed 2 t
      = ((cfg1.win 2).blk t).view.read (Elt F) (Layer.positivePart (Layer.addRow (V c main_v41) (V c main_v42))) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext j
  show k1_pay1 (iblk1 V c 0 t) (iblk1 V c 1 t) j = _
  refine (pay_apply _ _ j).trans ?_
  show FloatOps.maximumf (FloatOps.addf (V c main_v41 (((cfg1.win 0).blk t).view.emb j))
        (V c main_v42 (((cfg1.win 1).blk t).view.emb (ix2 (0 : Fin 1) (j 1))))) _
      = FloatOps.maximumf (FloatOps.addf (V c main_v41 (((cfg1.win 2).blk t).view.emb j))
        (V c main_v42 (ix2 (0 : Fin 1) ((((cfg1.win 2).blk t).view.emb j) 1)))) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]
  rfl

/-- An index of the array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v43).slice (win1_2.rect t)).set ↔ _
  rw [View.set_slice_whole, Rect.mem_set_unit]
  exact Iff.rfl

/-- The ten row blocks cover the array: row r lies in block r / 5000. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region: the positive part of the aggregated array plus the bias row. -/
theorem final (c : Dev nD) :
    (dat1 V c).arrAt 2 cfg1.N = Layer.positivePart (Layer.addRow (V c main_v41) (V c main_v42)) :=
  (dat1 V c).arrAt_eq_of_cover 2 _ (fun t _ => flushed_eq V c t) (cover)

end Cert.KernelIdeal.Region1

end
-- ==== Proof.KRegion2.lean ====
/-
  The third pallas_call (rows times a weight matrix), read as ONE whole-array function of the arrays it finds.

  Point t of its ten stages rows 5000·t … 5000·t + 4999 of the 50000 × 64 operand and the whole 64 × 2 weight matrix, and
  writes back the same rows of the 50000 × 2 result. The casts to the narrower float format are the identity on the
  extended reals and the matrix unit accumulates into zeros, so entry (p, q) of the block it writes is
  Σ_k x (p, k) · w (k, q) of the blocks it loaded; the ten blocks together are rowsTimes x w of the whole arrays.
-/
import proofs.«133802_j63608465654163_1_alg».proof.Proof.Gen.KernelIdeal.Frame
import proofs.«133802_j63608465654163_1_alg».proof.Proof.Spec
import proofs.«133802_j63608465654163_1_alg».proof.Proof.LibPlainMatmul
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at one entry of the block: a plain sum of products. -/
theorem pay_entry (x0 : Vec Ideal S5000x64 .f32) (x1 : Vec Ideal S64x2 .f32) (p : Fin 5000) (q : Fin 2) :
    k2_pay1 (F := Ideal) x0 x1 (ix2 p q) = ∑ k : Fin 64, x0 (ix2 p k) * x1 (ix2 k q) := by
  unfold k2_pay1
  simp only [shapeCast_self]
  exact Cert.PlainMatmul.matmul_zero_apply 5000 64 2 none _ _ p q

/-- The same at an index of the block, through its two coordinates. -/
theorem pay_apply (x0 : Vec Ideal S5000x64 .f32) (x1 : Vec Ideal S64x2 .f32) (j : S5000x2.Idx) :
    k2_pay1 (F := Ideal) x0 x1 j = ∑ k : Fin 64, x0 (ix2 (j 0) k) * x1 (ix2 k (j 1)) :=
  (congrArg (k2_pay1 (F := Ideal) x0 x1) (eq_ix2 j)).trans (pay_entry x0 x1 (j 0) (j 1))

/-- A sum of 64 products, the two factors read through two paths of indices. -/
def dotAlong (x : FVec Ideal S50000x64 .f32) (w : FVec Ideal S64x2 .f32) (f : Fin 64 → S50000x64.Idx) (g : Fin 64 → S64x2.Idx) : Ideal .f32 :=
  ∑ k : Fin 64, x (f k) * w (g k)

/-- The printed index maps over the grid: the row-block index is the point, every other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto : ∀ q : Fin 10, ∃ t : Fin cfg2.N, t.val = q.val :=
  (by decide +kernel : ∀ q : Fin 10, ∃ t : Fin grid2.N, t.val = q.val)

/-- What point t writes back is block t of the whole-array function. -/
theorem flushed_eq (c : Dev nD) (t : Fin cfg2.N) :
    (dat2 V c).flushed 2 t
      = ((cfg2.win 2).blk t).view.read (Elt Ideal) (Layer.rowsTimes (V c main_v43) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x2) hz]
  obtain ⟨e0, e1, e2, e3, e4, e5⟩ := idx_facts t
  funext j
  show k2_pay1 (iblk2 V c 0 t) (iblk2 V c 1 t) j = _
  refine (pay_apply _ _ j).trans ?_
  show dotAlong (V c main_v43) (V c main_arg4) (fun k => ((cfg2.win 0).blk t).view.emb (ix2 (j 0) k)) (fun k => ((cfg2.win 1).blk t).view.emb (ix2 k (j 1)))
      = dotAlong (V c main_v43) (V c main_arg4) (fun k => ix2 ((((cfg2.win 2).blk t).view.emb j) 0) k) (fun k => ix2 k ((((cfg2.win 2).blk t).view.emb j) 1))
  have h0 : ∀ k : Fin 64, ((cfg2.win 0).blk t).view.emb (ix2 (j 0) k) = ix2 ((((cfg2.win 2).blk t).view.emb j) 0) k := fun k => by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ∀ k : Fin 64, ((cfg2.win 1).blk t).view.emb (ix2 k (j 1)) = ix2 k ((((cfg2.win 2).blk t).view.emb j) 1) := fun k => by
    funext a; apply Fin.ext
    match a with
    | ⟨0, _⟩ => show win2_1.index t (0 : Fin 2) * 64 + 1 * k.val = k.val; omega
    | ⟨1, _⟩ => show win2_1.index t (1 : Fin 2) * 2 + 1 * (j 1).val = win2_2.index t (1 : Fin 2) * 2 + 1 * (j 1).val; omega
  exact congrArg₂ (dotAlong (V c main_v43) (V c main_arg4)) (funext h0) (funext h1)

/-- An index of the array is in point t's block iff each coordinate is in the block's range on its axis. -/
theorem mem_blk (t : Fin cfg2.N) (i : S50000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v44).slice (win2_2.rect t)).set ↔ _
  rw [View.set_slice_whole, Rect.mem_set_unit]
  exact Iff.rfl

/-- The ten row blocks cover the array: row r lies in block r / 5000. -/
theorem cover (i : S50000x2.Idx) :
    ∃ t : Fin cfg2.N, (cfg2.win 2).flush t = true ∧ i ∈ ((cfg2.win 2).blk t).view.set := by
  have hi0 : (i 0).val < 50000 := (i 0).isLt
  have hi1 : (i 1).val < 2 := (i 1).isLt
  obtain ⟨t, ht⟩ := idx_onto ⟨(i 0).val / 5000, by omega⟩
  have ht' : t.val = (i 0).val / 5000 := ht
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- The result array after the region: every row of the operand times the weight matrix. -/
theorem final (c : Dev nD) :
    (dat2 V c).arrAt 2 cfg2.N = Layer.rowsTimes (V c main_v43) (V c main_arg4) :=
  (dat2 V c).arrAt_eq_of_cover 2 _ (fun t _ => flushed_eq V c t) (cover)

end Cert.KernelIdeal.Region2

end
-- ==== Proof.KRegion3.lean ====
/-
  The fourth pallas_call (the last bias add), read as ONE whole-array function of the arrays it finds.

  Point t of its ten stages rows 5000·t … 5000·t + 4999 of the aggregated 50000 × 2 array and the whole 1 × 2 bias row, and
  writes back the same rows of the result. Entry (p, q) of the block it writes is a (p, q) + b (0, q), so the ten blocks
  together are addRow a b of the whole arrays.
-/
import proofs.«133802_j63608465654163_1_alg».proof.Proof.Gen.KernelIdeal.Frame
import proofs.«133802_j63608465654163_1_alg».proof.Proof.Spec
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's arithmetic at one entry of the block. -/
theorem pay_apply (x0 : Vec F S5000x2 .f32) (x1 : Vec F S1x2 .f32) (j : S5000x2.Idx) :
    k3_pay1 x0 x1 j
      = FloatOps.addf (x0 j) (x1 (ix2 (0 : Fin 1) (j 1))) := by
  unfold k3_pay1
  show FloatOps.addf (shapeCast S5000x2 x0 shapeCasts_S5000x2_S5000x2 j)
      (broadcastTo S5000x2 (shapeCast S1x2 x1 shapeCasts_S1x2_S1x2) broadcasts_S1x2_S5000x2 j) = _
  rw [shapeCast_self, shapeCast_self,
    broadcastTo_apply x1 broadcasts_S1x2_S5000x2 j (ix2 (0 : Fin 1) (j 1))
      (fun a => by match a with | ⟨0, _⟩ => rfl | ⟨1, _⟩ => rfl)]

/-- The printed index maps over the grid: the row-block index is the point, every other block index is zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem idx_onto : ∀ q : Fin 10, ∃ t : Fin cfg3.N, t.val = q.val :=
  (by decide +kernel : ∀ q : Fin 10, ∃ t : Fin grid3.N, t.val = q.val)

/-- What point t writes back is block t of the whole-array function. -/
theorem flushed_eq (c : Dev nD) (t : Fin cfg3.N) :
    (dat3 V c).flushed 2 t
      = ((cfg3.win 2).blk t).view.read (Elt F) (Layer.addRow (V c main_v57) (V c main_v58)) := by
  show (cfg3.win 2).cut (grid3.coords t) ((dat3 V c).after 2 t) = _
  rw [after3_2]
  unfold out3_2
  rw [View.canon_unit_zero hz]
  simp only [View.ld_unit_zero (S := S5000x2) hz, View.ld_unit_zero (S := S1x2) hz]
  obtain ⟨e0, e1, e2, e3, e4, e5⟩ := idx_facts t
  funext j
  show k3_pay1 (iblk3 V c 0 t) (iblk3 V c 1 t) j = _
  refine (pay_apply _ _ j).trans ?_
  show FloatOps.addf (V c main_v57 (((cfg3.win 0).blk t).view.emb j))
        (V c main_v58 (((cfg3.win 1).blk t).view.emb (ix2 (0 : Fin 1) (j 1))))
      = FloatOps.addf (V c main_v57 (((cfg3.win 2).blk t).view.emb j))
        (V c main_v58 (ix2 (0 : Fin 1) ((((cfg3.win 2).blk t).view.emb j) 1)))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 2 + 1 * (j 1).val = win3_2.index t (1 : Fin 2) * 2 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 2 + 1 * (j 1).val = win3_2.index t (1 : Fin 2) * 2 + 1 * (j 1).val; omega
  rw [h0, h1]
  rfl

/-- An index of the array is in point t's block iff each coordinate is in the block's range on its axis. -/
theorem mem_blk (t : Fin cfg3.N) (i : S50000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v59).slice (win3_2.rect t)).set ↔ _
  rw [View.set_slice_whole, Rect.mem_set_unit]
  exact Iff.rfl

/-- The ten row blocks cover the array: row r lies in block r / 5000. -/
theorem cover (i : S50000x2.Idx) :
    ∃ t : Fin cfg3.N, (cfg3.win 2).flush t = true ∧ i ∈ ((cfg3.win 2).blk t).view.set := by
  have hi0 : (i 0).val < 50000 := (i 0).isLt
  have hi1 : (i 1).val < 2 := (i 1).isLt
  obtain ⟨t, ht⟩ := idx_onto ⟨(i 0).val / 5000, by omega⟩
  have ht' : t.val = (i 0).val / 5000 := ht
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 2 ≤ (i 1).val ∧ (i 1).val < win3_2.index t (1 : Fin 2) * 2 + 2; omega

/-- The result array after the region: the aggregated array plus the bias row. -/
theorem final (c : Dev nD) :
    (dat3 V c).arrAt 2 cfg3.N = Layer.addRow (V c main_v57) (V c main_v58) :=
  (dat3 V c).arrAt_eq_of_cover 2 _ (fun t _ => flushed_eq V c t) (cover)

end Cert.KernelIdeal.Region3

end
-- ==== Proof.KHost0.lean ====
/-
  The host operations before the first pallas_call: the edge list and its weights, from the edge-index argument alone.

  They write no argument array, and they leave the source nodes (the first row of the edge index followed by one self loop
  per node), the destination nodes (the second row, likewise) and the edge weights (the product of the two endpoint
  degrees, each raised to -1/2) exactly as the reference's first operations do: the two programs print the same operations
  here, so each is the reference's stage by unfolding.
-/
import proofs.«133802_j63608465654163_1_alg».proof.Proof.Gen.KernelIdeal.Frame
import Idealize.ShloMosaic.Lib.StableHlo.Run
import proofs.«133802_j63608465654163_1_alg».proof.Proof.Gen.ReferenceIdeal.Read

set_option maxRecDepth 16384

noncomputable section

namespace Cert.KernelIdeal.Host0

open Cert.KernelIdeal Cert.KernelIdeal.Gen Idealize.ShloMosaic Idealize.ShloMosaic.TcCoe Idealize.SL.Sem Idealize.ShloMosaic.StableHlo

/-- A stretch of host operations leaves a buffer none of them writes as it found it. -/
macro "host_keeps" : tactic => `(tactic| (
  refine StableHlo.after_of_forall_not_mem _ _ (List.forall_iff_forall_mem.mp ?_)
  simp only [hostOps0, hostOps1, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

/-! ## The arguments reach the first pallas_call as launched -/

theorem keep_main_arg0 (c : Dev nD) : W1 m ρ c (Proc.devRef .tc main_arg0) = m ((c : Thread nD τ).loc main_arg0) := by
  refine Eq.trans ?_ (rfl : W0 m ρ c (Proc.devRef .tc main_arg0) = m ((c : Thread nD τ).loc main_arg0))
  host_keeps

theorem keep_main_arg2 (c : Dev nD) : W1 m ρ c (Proc.devRef .tc main_arg2) = m ((c : Thread nD τ).loc main_arg2) := by
  refine Eq.trans ?_ (rfl : W0 m ρ c (Proc.devRef .tc main_arg2) = m ((c : Thread nD τ).loc main_arg2))
  host_keeps

theorem keep_main_arg3 (c : Dev nD) : W1 m ρ c (Proc.devRef .tc main_arg3) = m ((c : Thread nD τ).loc main_arg3) := by
  refine Eq.trans ?_ (rfl : W0 m ρ c (Proc.devRef .tc main_arg3) = m ((c : Thread nD τ).loc main_arg3))
  host_keeps

theorem keep_main_arg4 (c : Dev nD) : W1 m ρ c (Proc.devRef .tc main_arg4) = m ((c : Thread nD τ).loc main_arg4) := by
  refine Eq.trans ?_ (rfl : W0 m ρ c (Proc.devRef .tc main_arg4) = m ((c : Thread nD τ).loc main_arg4))
  host_keeps

theorem keep_main_arg5 (c : Dev nD) : W1 m ρ c (Proc.devRef .tc main_arg5) = m ((c : Thread nD τ).loc main_arg5) := by
  refine Eq.trans ?_ (rfl : W0 m ρ c (Proc.devRef .tc main_arg5) = m ((c : Thread nD τ).loc main_arg5))
  host_keeps

/-! ## The edge list and the weights are the reference's -/

set_option maxHeartbeats 8000000 in
/-- The source node of every edge. -/
theorem src_eq (c : Dev nD) :
    (W1 m ρ c (Proc.devRef .tc main_v3) : IVec S850000 32)
      = Cert.ReferenceIdeal.Read.val_main_v3 (F := F) (m ((c : Thread nD τ).loc main_arg1)) := by
  dsimp only [W1, hostOps0]
  after_results
  rfl

set_option maxHeartbeats 8000000 in
/-- The destination node of every edge. -/
theorem dst_eq (c : Dev nD) :
    (W1 m ρ c (Proc.devRef .tc main_v6) : IVec S850000 32)
      = Cert.ReferenceIdeal.Read.val_main_v6 (F := F) (m ((c : Thread nD τ).loc main_arg1)) := by
  dsimp only [W1, hostOps0]
  after_results
  rfl

set_option maxHeartbeats 8000000 in
/-- The weight of every edge. -/
theorem nrm_eq (c : Dev nD) :
    (W1 m ρ c (Proc.devRef .tc main_v27) : FVec F S850000 .f32)
      = Cert.ReferenceIdeal.Read.val_main_v27 (F := F) (m ((c : Thread nD τ).loc main_arg1)) := by
  dsimp only [W1, hostOps0]
  after_results
  rfl

end Cert.KernelIdeal.Host0

end
-- ==== Proof.Glue.lean ====
/-
  The edge aggregation, the part of a layer both programs spell with the same host operations.

  Given the source and destination node of each of the 850000 edges (800000 given edges and one self loop per node), the
  edge weights, and a 50000 × C array h of node rows: gather row src(e) of h for every edge e (an index below zero wrapped
  by 50000 first), scale it by the edge's weight, and scatter-add the scaled rows into a zero array at row dst(e).
  It is stated once, as the composition of the host operations, and is never opened: both programs apply this one
  function, to arguments shown equal.
-/
import proofs.«133802_j63608465654163_1_alg».proof.Proof.Gen.KernelIdeal

noncomputable section

namespace Cert.KernelIdeal.Glue

open Cert.KernelIdeal Cert.KernelIdeal.Gen Idealize.ShloMosaic

variable {F : FTy → Type} [FloatOps F]

/-- The aggregation of 64-wide rows (the first layer). -/
def aggregate64 (src dst : IVec S850000 32) (nrm : FVec F S850000 .f32) (h : FVec F S50000x64 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf
      (broadcastInDim S850000x64 ![0, 1] bcast_S850000x1_S850000x64_0_1
        (broadcastInDim S850000x1 ![0] bcast_S850000_S850000x1_0 nrm))
      (Host.gather gather_S50000x64_S850000x1_S850000x64_1_0_n_n_0_1_164 h
        (broadcastInDim S850000x1 ![0] bcast_S850000_S850000x1_0
          (select
            (cmpi CmpIPredicate.slt src (broadcastInDim S850000 ![] bcast_S_S850000 (constantI S_ 32 0#32)))
            (addi src (broadcastInDim S850000 ![] bcast_S_S850000 (constantI S_ 32 50000#32)))
            src))))

/-- The aggregation of 2-wide rows (the second layer). -/
def aggregate2 (src dst : IVec S850000 32) (nrm : FVec F S850000 .f32) (h : FVec F S50000x2 .f32) : FVec F S50000x2 .f32 :=
  Host.scatterAdd scatter_S50000x2_S850000x1_S850000x2_1_0_0_1
    (broadcastInDim S50000x2 ![] bcast_S_S50000x2 (constant S_ .f32 0x00000000#32))
    (broadcastInDim S850000x1 ![0] bcast_S850000_S850000x1_0 dst)
    (mulf
      (broadcastInDim S850000x2 ![0, 1] bcast_S850000x1_S850000x2_0_1
        (broadcastInDim S850000x1 ![0] bcast_S850000_S850000x1_0 nrm))
      (Host.gather gather_S50000x2_S850000x1_S850000x2_1_0_n_n_0_1_12 h
        (broadcastInDim S850000x1 ![0] bcast_S850000_S850000x1_0
          (select
            (cmpi CmpIPredicate.slt src (broadcastInDim S850000 ![] bcast_S_S850000 (constantI S_ 32 0#32)))
            (addi src (broadcastInDim S850000 ![] bcast_S_S850000 (constantI S_ 32 50000#32)))
            src))))

end Cert.KernelIdeal.Glue

end
-- ==== Proof.KHost1.lean ====
/-
  The host operations between the first and the second pallas_call: the first layer's edge aggregation of the
  product the first call left, and the first bias as a 1 × 64 row. They write neither the edge list, nor the weights, nor
  a later argument.
-/
import proofs.«133802_j63608465654163_1_alg».proof.Proof.Gen.KernelIdeal.Frame
import Idealize.ShloMosaic.Lib.StableHlo.Run
import proofs.«133802_j63608465654163_1_alg».proof.Proof.Glue

set_option maxRecDepth 16384

noncomputable section

namespace Cert.KernelIdeal.Host1

open Cert.KernelIdeal Cert.KernelIdeal.Gen Idealize.ShloMosaic Idealize.ShloMosaic.TcCoe Idealize.SL.Sem Idealize.ShloMosaic.StableHlo

/-- A stretch of host operations leaves a buffer none of them writes as it found it. -/
macro "host_keeps" : tactic => `(tactic| (
  refine StableHlo.after_of_forall_not_mem _ _ (List.forall_iff_forall_mem.mp ?_)
  simp only [hostOps0, hostOps1, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

theorem keep_main_v3 (c : Dev nD) : W3 m ρ c (Proc.devRef .tc main_v3) = W2 m ρ c (Proc.devRef .tc main_v3) := by
  host_keeps

theorem keep_main_v6 (c : Dev nD) : W3 m ρ c (Proc.devRef .tc main_v6) = W2 m ρ c (Proc.devRef .tc main_v6) := by
  host_keeps

theorem keep_main_v27 (c : Dev nD) : W3 m ρ c (Proc.devRef .tc main_v27) = W2 m ρ c (Proc.devRef .tc main_v27) := by
  host_keeps

theorem keep_main_arg4 (c : Dev nD) : W3 m ρ c (Proc.devRef .tc main_arg4) = W2 m ρ c (Proc.devRef .tc main_arg4) := by
  host_keeps

theorem keep_main_arg5 (c : Dev nD) : W3 m ρ c (Proc.devRef .tc main_arg5) = W2 m ρ c (Proc.devRef .tc main_arg5) := by
  host_keeps

set_option maxHeartbeats 8000000 in
/-- The aggregated rows of the first layer, from what the first pallas_call and the first stretch left. -/
theorem agg_eq (c : Dev nD) :
    (W3 m ρ c (Proc.devRef .tc main_v41) : FVec F S50000x64 .f32)
      = Glue.aggregate64 (W2 m ρ c (Proc.devRef .tc main_v3)) (W2 m ρ c (Proc.devRef .tc main_v6))
          (W2 m ρ c (Proc.devRef .tc main_v27)) (W2 m ρ c (Proc.devRef .tc main_v28)) := by
  dsimp only [W3, hostOps1]
  after_results
  rfl

set_option maxHeartbeats 8000000 in
/-- The first bias, recast as a 1 × 64 row. -/
theorem row_eq (c : Dev nD) :
    (W3 m ρ c (Proc.devRef .tc main_v42) : FVec F S1x64 .f32)
      = shapeCast S1x64 (W2 m ρ c (Proc.devRef .tc main_arg3) : FVec F S64 .f32) shapeCasts_S64_S1x64 := by
  dsimp only [W3, hostOps1]
  after_results
  rfl

end Cert.KernelIdeal.Host1

end
-- ==== Proof.KHost3.lean ====
/-
  The host operations between the third and the fourth pallas_call: the second layer's edge aggregation of the
  product the third call left, and the second bias as a 1 × 2 row.
-/
import proofs.«133802_j63608465654163_1_alg».proof.Proof.Gen.KernelIdeal.Frame
import Idealize.ShloMosaic.Lib.StableHlo.Run
import proofs.«133802_j63608465654163_1_alg».proof.Proof.Glue

set_option maxRecDepth 16384

noncomputable section

namespace Cert.KernelIdeal.Host3

open Cert.KernelIdeal Cert.KernelIdeal.Gen Idealize.ShloMosaic Idealize.ShloMosaic.TcCoe Idealize.SL.Sem Idealize.ShloMosaic.StableHlo

/-- A stretch of host operations leaves a buffer none of them writes as it found it. -/
macro "host_keeps" : tactic => `(tactic| (
  refine StableHlo.after_of_forall_not_mem _ _ (List.forall_iff_forall_mem.mp ?_)
  simp only [hostOps0, hostOps1, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

set_option maxHeartbeats 8000000 in
/-- The aggregated rows of the second layer, from what the third pallas_call and the first stretch left. -/
theorem agg_eq (c : Dev nD) :
    (W6 m ρ c (Proc.devRef .tc main_v57) : FVec F S50000x2 .f32)
      = Glue.aggregate2 (W5 m ρ c (Proc.devRef .tc main_v3)) (W5 m ρ c (Proc.devRef .tc main_v6))
          (W5 m ρ c (Proc.devRef .tc main_v27)) (W5 m ρ c (Proc.devRef .tc main_v44)) := by
  dsimp only [W6, hostOps3]
  after_results
  rfl

set_option maxHeartbeats 8000000 in
/-- The second bias, recast as a 1 × 2 row. -/
theorem row_eq (c : Dev nD) :
    (W6 m ρ c (Proc.devRef .tc main_v58) : FVec F S1x2 .f32)
      = shapeCast S1x2 (W5 m ρ c (Proc.devRef .tc main_arg5) : FVec F S2 .f32) shapeCasts_S2_S1x2 := by
  dsimp only [W6, hostOps3]
  after_results
  rfl

end Cert.KernelIdeal.Host3

end
-- ==== Proof.RefStages.lean ====
/-
  The reference's run read one operation at a time, against the layer functions.

  Its two matrix products are rowsTimes; the bias it broadcasts first to a 1 × C row and then along the 50000 rows is
  addRow of that row; its relu is the maximum with a broadcast zero, positivePart. The edge aggregation between
  them (gather, scale, scatter-add) is left as the reference states it.
-/
import proofs.«133802_j63608465654163_1_alg».proof.Proof.Gen.ReferenceIdeal.Read
import proofs.«133802_j63608465654163_1_alg».proof.Proof.Spec

noncomputable section

namespace Cert.RefStages

open Cert.ReferenceIdeal Cert.ReferenceIdeal.Read Idealize.ShloMosaic Idealize.ShloMosaic.ValueIdx

/-- The first product: entry (r, j) of x · W1 is Σ_k x (r, k) · W1 (k, j). -/
theorem dot1 (x0 : FVec Ideal S50000x64 .f32) (x2 : FVec Ideal S64x64 .f32) :
    val_main_v28 (F := Ideal) x0 x2 = Layer.rowsTimes x0 x2 := by
  funext i
  rw [val_main_v28_apply]
  unfold Layer.rowsTimes
  refine Finset.sum_congr rfl fun k _ => ?_
  have el : lidx_main_v28 i k = ix2 (i 0) k := funext fun a => by match a with | ⟨0, _⟩ => rfl | ⟨1, _⟩ => rfl
  have er : ridx_main_v28 i k = ix2 k (i 1) := funext fun a => by match a with | ⟨0, _⟩ => rfl | ⟨1, _⟩ => rfl
  rw [el, er]
  rfl

/-- The first layer's activation: the positive part of the aggregated rows plus the bias row. -/
theorem act1 {F : FTy → Type} [FloatOps F] (x0 : FVec F S50000x64 .f32) (x1 : IVec S2x800000 32) (x2 : FVec F S64x64 .f32) (x3 : FVec F S64 .f32) :
    val_main_v45 (F := F) x0 x1 x2 x3
      = Layer.positivePart (Layer.addRow (val_main_v41 (F := F) x0 x1 x2) (val_main_v42 (F := F) x3)) := by
  funext i
  rw [val_main_v45_apply, val_main_v44_apply, val_main_v43_apply, val_main_call0_v0_apply]
  have e : idx_main_v43 i = ix2 (0 : Fin 1) (i 1) := funext fun a => by match a with | ⟨0, _⟩ => rfl | ⟨1, _⟩ => rfl
  rw [e]
  rfl

/-- The second product: the activated rows times W2. -/
theorem dot2 (x0 : FVec Ideal S50000x64 .f32) (x1 : IVec S2x800000 32) (x2 : FVec Ideal S64x64 .f32) (x3 : FVec Ideal S64 .f32) (x4 : FVec Ideal S64x2 .f32) :
    val_main_v46 (F := Ideal) x0 x1 x2 x3 x4 = Layer.rowsTimes (val_main_v45 (F := Ideal) x0 x1 x2 x3) x4 := by
  funext i
  rw [val_main_v46_apply]
  unfold Layer.rowsTimes
  refine Finset.sum_congr rfl fun k _ => ?_
  have el : lidx_main_v46 i k = ix2 (i 0) k := funext fun a => by match a with | ⟨0, _⟩ => rfl | ⟨1, _⟩ => rfl
  have er : ridx_main_v46 i k = ix2 k (i 1) := funext fun a => by match a with | ⟨0, _⟩ => rfl | ⟨1, _⟩ => rfl
  rw [el, er]
  rfl

/-- The result: the second aggregation plus the second bias row. -/
theorem out2 {F : FTy → Type} [FloatOps F] (x0 : FVec F S50000x64 .f32) (x1 : IVec S2x800000 32) (x2 : FVec F S64x64 .f32) (x3 : FVec F S64 .f32) (x4 : FVec F S64x2 .f32) (x5 : FVec F S2 .f32) :
    val_main_v62 (F := F) x0 x1 x2 x3 x4 x5
      = Layer.addRow (val_main_v59 (F := F) x0 x1 x2 x3 x4) (val_main_v60 (F := F) x5) := by
  funext i
  rw [val_main_v62_apply, val_main_v61_apply]
  have e : idx_main_v61 i = ix2 (0 : Fin 1) (i 1) := funext fun a => by match a with | ⟨0, _⟩ => rfl | ⟨1, _⟩ => rfl
  rw [e]
  rfl

end Cert.RefStages

end
-- ==== Proof.RefGlue.lean ====
/-
  The reference's edge aggregations are the shared aggregation functions, and its bias rows are the kernel's.

  The reference prints the same gather / scale / scatter-add operations as the kernel's host code, over its own copies of
  the shape records; unfolding its stages gives the shared function of the edge list, the weights and the node rows.
  A bias vector b of length C broadcast to a 1 × C row and the same vector recast to 1 × C are one row: entry (0, q) is b q.
-/
import proofs.«133802_j63608465654163_1_alg».proof.Proof.Gen.ReferenceIdeal.Read
import proofs.«133802_j63608465654163_1_alg».proof.Proof.Glue
import Idealize.ShloMosaic.Lib.Pipeline.Value

set_option maxRecDepth 16384

noncomputable section

namespace Cert.RefGlue

open Cert.ReferenceIdeal Cert.ReferenceIdeal.Read Idealize.ShloMosaic

variable {F : FTy → Type} [FloatOps F]

/-- The first layer's aggregation. -/
theorem agg1 (x0 : FVec F S50000x64 .f32) (x1 : IVec S2x800000 32) (x2 : FVec F S64x64 .f32) :
    val_main_v41 (F := F) x0 x1 x2
      = Cert.KernelIdeal.Glue.aggregate64 (val_main_v3 (F := F) x1) (val_main_v6 (F := F) x1) (val_main_v27 (F := F) x1)
          (val_main_v28 (F := F) x0 x2) := rfl

/-- The second layer's aggregation. -/
theorem agg2 (x0 : FVec F S50000x64 .f32) (x1 : IVec S2x800000 32) (x2 : FVec F S64x64 .f32) (x3 : FVec F S64 .f32)
    (x4 : FVec F S64x2 .f32) :
    val_main_v59 (F := F) x0 x1 x2 x3 x4
      = Cert.KernelIdeal.Glue.aggregate2 (val_main_v3 (F := F) x1) (val_main_v6 (F := F) x1) (val_main_v27 (F := F) x1)
          (val_main_v46 (F := F) x0 x1 x2 x3 x4) := rfl

/-- The first bias as a row: recast or broadcast, entry (0, q) is b q. -/
theorem row1 (x3 : FVec F S64 .f32) (h : S64.ShapeCasts S1x64) :
    shapeCast S1x64 x3 h = val_main_v42 (F := F) x3 := by
  funext i
  rw [val_main_v42_apply]
  refine (shapeCast_addUnit_apply ![64] x3 h i).trans ?_
  exact congrArg x3 (funext fun a => by match a with | ⟨0, _⟩ => rfl)

/-- The second bias as a row. -/
theorem row2 (x5 : FVec F S2 .f32) (h : S2.ShapeCasts S1x2) :
    shapeCast S1x2 x5 h = val_main_v60 (F := F) x5 := by
  funext i
  rw [val_main_v60_apply]
  refine (shapeCast_addUnit_apply ![2] x5 h i).trans ?_
  exact congrArg x5 (funext fun a => by match a with | ⟨0, _⟩ => rfl)

end Cert.RefGlue

end
-- ==== Proof.Bridge.lean ====
/-
  Stage by stage, the idealized kernel's buffers are the reference's stages of the launch arguments.

  Write x, e, W1, b1, W2, b2 for the six arguments. Through the fold of the buffer contents over @main's segments:
  the first pallas_call leaves x · W1; the host stretch after it aggregates those rows over the edges and recasts b1 as a row; the
  second call leaves the positive part of the aggregate plus that row; the third leaves that times W2; the next stretch
  aggregates again and recasts b2; the fourth call adds that row. Each of these is the reference's stage of the same name,
  because the matrix products are one sum of products (any blocking of the rows), the edge aggregation is one function
  applied to equal arguments, and the bias rows are equal entry by entry. No step needs a finite input.
-/
import proofs.«133802_j63608465654163_1_alg».proof.Proof.KRegion0
import proofs.«133802_j63608465654163_1_alg».proof.Proof.KRegion1
import proofs.«133802_j63608465654163_1_alg».proof.Proof.KRegion2
import proofs.«133802_j63608465654163_1_alg».proof.Proof.KRegion3
import proofs.«133802_j63608465654163_1_alg».proof.Proof.KHost0
import proofs.«133802_j63608465654163_1_alg».proof.Proof.KHost1
import proofs.«133802_j63608465654163_1_alg».proof.Proof.KHost3
import proofs.«133802_j63608465654163_1_alg».proof.Proof.RefStages
import proofs.«133802_j63608465654163_1_alg».proof.Proof.RefGlue

set_option maxRecDepth 16384

noncomputable section

namespace Cert.Bridge

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

/-- The six arguments as launched. -/
abbrev X : FVec Ideal S50000x64 .f32 := m ((c : Thread nD τ).loc main_arg0)
abbrev E : IVec S2x800000 32 := m ((c : Thread nD τ).loc main_arg1)
abbrev Wa : FVec Ideal S64x64 .f32 := m ((c : Thread nD τ).loc main_arg2)
abbrev Ba : FVec Ideal S64 .f32 := m ((c : Thread nD τ).loc main_arg3)
abbrev Wb : FVec Ideal S64x2 .f32 := m ((c : Thread nD τ).loc main_arg4)
abbrev Bb : FVec Ideal S2 .f32 := m ((c : Thread nD τ).loc main_arg5)

/-! ## The edge list and the weights, wherever they are read -/

theorem src2 : (W2 m ρ c (Proc.devRef .tc main_v3) : IVec S850000 32) = val_main_v3 (F := Ideal) (E m c) :=
  (W2_of_ne m ρ c main_v3 (by decide)).trans (Host0.src_eq m ρ c)
theorem dst2 : (W2 m ρ c (Proc.devRef .tc main_v6) : IVec S850000 32) = val_main_v6 (F := Ideal) (E m c) :=
  (W2_of_ne m ρ c main_v6 (by decide)).trans (Host0.dst_eq m ρ c)
theorem nrm2 : (W2 m ρ c (Proc.devRef .tc main_v27) : FVec Ideal S850000 .f32) = val_main_v27 (F := Ideal) (E m c) :=
  (W2_of_ne m ρ c main_v27 (by decide)).trans (Host0.nrm_eq m ρ c)

theorem src5 : (W5 m ρ c (Proc.devRef .tc main_v3) : IVec S850000 32) = val_main_v3 (F := Ideal) (E m c) :=
  (W5_of_ne m ρ c main_v3 (by decide)).trans ((W4_of_ne m ρ c main_v3 (by decide)).trans ((Host1.keep_main_v3 m ρ c).trans (src2 m ρ c)))
theorem dst5 : (W5 m ρ c (Proc.devRef .tc main_v6) : IVec S850000 32) = val_main_v6 (F := Ideal) (E m c) :=
  (W5_of_ne m ρ c main_v6 (by decide)).trans ((W4_of_ne m ρ c main_v6 (by decide)).trans ((Host1.keep_main_v6 m ρ c).trans (dst2 m ρ c)))
theorem nrm5 : (W5 m ρ c (Proc.devRef .tc main_v27) : FVec Ideal S850000 .f32) = val_main_v27 (F := Ideal) (E m c) :=
  (W5_of_ne m ρ c main_v27 (by decide)).trans ((W4_of_ne m ρ c main_v27 (by decide)).trans ((Host1.keep_main_v27 m ρ c).trans (nrm2 m ρ c)))

/-! ## The later arguments, where they are read -/

theorem b1_2 : (W2 m ρ c (Proc.devRef .tc main_arg3) : FVec Ideal S64 .f32) = Ba m c :=
  (W2_of_ne m ρ c main_arg3 (by decide)).trans (Host0.keep_main_arg3 m ρ c)
theorem w2_4 : (W4 m ρ c (Proc.devRef .tc main_arg4) : FVec Ideal S64x2 .f32) = Wb m c :=
  (W4_of_ne m ρ c main_arg4 (by decide)).trans ((Host1.keep_main_arg4 m ρ c).trans
    ((W2_of_ne m ρ c main_arg4 (by decide)).trans (Host0.keep_main_arg4 m ρ c)))
theorem b2_5 : (W5 m ρ c (Proc.devRef .tc main_arg5) : FVec Ideal S2 .f32) = Bb m c :=
  (W5_of_ne m ρ c main_arg5 (by decide)).trans ((W4_of_ne m ρ c main_arg5 (by decide)).trans ((Host1.keep_main_arg5 m ρ c).trans
    ((W2_of_ne m ρ c main_arg5 (by decide)).trans (Host0.keep_main_arg5 m ρ c))))

/-! ## The first layer -/

/-- After the first pallas_call: x · W1. -/
theorem prod1 : (W2 m ρ c (Proc.devRef .tc main_v28) : FVec Ideal S50000x64 .f32) = val_main_v28 (F := Ideal) (X m c) (Wa m c) := by
  refine (W2_arr m ρ c 2).trans ((Region0.final (V1 m ρ) c).trans ?_)
  show Layer.rowsTimes (C := 64) (W1 m ρ c (Proc.devRef .tc main_arg0)) (W1 m ρ c (Proc.devRef .tc main_arg2)) = _
  rw [Host0.keep_main_arg0, Host0.keep_main_arg2]
  exact (RefStages.dot1 _ _).symm

/-- After the stretch that follows: the aggregate of those rows over the edges. -/
theorem agg1 : (W3 m ρ c (Proc.devRef .tc main_v41) : FVec Ideal S50000x64 .f32) = val_main_v41 (F := Ideal) (X m c) (E m c) (Wa m c) := by
  refine (Host1.agg_eq m ρ c).trans ?_
  rw [src2, dst2, nrm2, prod1]
  exact (RefGlue.agg1 _ _ _).symm

/-- … and the first bias as a row. -/
theorem row1 : (W3 m ρ c (Proc.devRef .tc main_v42) : FVec Ideal S1x64 .f32) = val_main_v42 (F := Ideal) (Ba m c) := by
  refine (Host1.row_eq m ρ c).trans ?_
  rw [b1_2]
  exact RefGlue.row1 _ _

/-- After the second pallas_call: the positive part of the aggregate plus the bias row. -/
theorem act1 : (W4 m ρ c (Proc.devRef .tc main_v43) : FVec Ideal S50000x64 .f32)
    = val_main_v45 (F := Ideal) (X m c) (E m c) (Wa m c) (Ba m c) := by
  refine (W4_arr m ρ c 2).trans ((Region1.final (V3 m ρ) c).trans ?_)
  show Layer.positivePart (F := Ideal) (C := 64) (Layer.addRow (F := Ideal) (C := 64) (W3 m ρ c (Proc.devRef .tc main_v41)) (W3 m ρ c (Proc.devRef .tc main_v42))) = _
  rw [agg1, row1]
  exact (RefStages.act1 _ _ _ _).symm

/-! ## The second layer -/

/-- After the third pallas_call: the activated rows times W2. -/
theorem prod2 : (W5 m ρ c (Proc.devRef .tc main_v44) : FVec Ideal S50000x2 .f32)
    = val_main_v46 (F := Ideal) (X m c) (E m c) (Wa m c) (Ba m c) (Wb m c) := by
  refine (W5_arr m ρ c 2).trans ((Region2.final (V4 m ρ) c).trans ?_)
  show Layer.rowsTimes (C := 2) (W4 m ρ c (Proc.devRef .tc main_v43)) (W4 m ρ c (Proc.devRef .tc main_arg4)) = _
  rw [act1, w2_4]
  exact (RefStages.dot2 _ _ _ _ _).symm

/-- After the stretch that follows: the second aggregate. -/
theorem agg2 : (W6 m ρ c (Proc.devRef .tc main_v57) : FVec Ideal S50000x2 .f32)
    = val_main_v59 (F := Ideal) (X m c) (E m c) (Wa m c) (Ba m c) (Wb m c) := by
  refine (Host3.agg_eq m ρ c).trans ?_
  rw [src5, dst5, nrm5, prod2]
  exact (RefGlue.agg2 _ _ _ _ _).symm

/-- … and the second bias as a row. -/
theorem row2 : (W6 m ρ c (Proc.devRef .tc main_v58) : FVec Ideal S1x2 .f32) = val_main_v60 (F := Ideal) (Bb m c) := by
  refine (Host3.row_eq m ρ c).trans ?_
  rw [b2_5]
  exact RefGlue.row2 _ _

/-- After the fourth pallas_call, the result: the second aggregate plus the second bias row — the reference's result
    of the launch arguments. -/
theorem result : (W7 m ρ c (Proc.devRef .tc main_v59) : FVec Ideal S50000x2 .f32)
    = val_main_v62 (F := Ideal) (X m c) (E m c) (Wa m c) (Ba m c) (Wb m c) (Bb m c) := by
  refine (W7_arr m ρ c 2).trans ((Region3.final (V6 m ρ) c).trans ?_)
  show Layer.addRow (F := Ideal) (C := 2) (W6 m ρ c (Proc.devRef .tc main_v57)) (W6 m ρ c (Proc.devRef .tc main_v58)) = _
  rw [agg2, row2]
  exact (RefStages.out2 _ _ _ _ _ _).symm

end Cert.Bridge

end
-- ==== Proof.lean ====
/-
  A two-layer graph convolution on 50000 nodes and 850000 edges (800000 given, one self loop per node), features
  64 → 64 → 2: the kernel against its jnp reference, on the extended reals.

  Each layer is  h ↦ A (h · W) + b,  A the degree-normalized adjacency applied by gather, scale and scatter-add over the
  edge list, with the positive part after the first layer. The kernel computes h · W and the bias (and positive part)
  in four pallas_calls, each tiled into ten blocks of 5000 rows, with the matrix unit fed narrowed operands; the reference
  uses one dot_general per layer and plain broadcasts. On the extended reals the narrowing is the identity and a row of
  h · W is one sum of 64 products whichever block holds it, so each pallas_call leaves exactly the reference's stage; the
  edge aggregation between them is the same composition of host operations in both programs, applied to equal arrays.
  Only regrouping of rows is used — no distributive law — so the precondition (finite inputs) is never opened.

  The three frames: the two kernels' are the generated several-region frames; the reference's is its generated run with
  the result dropped. The idealization rewrote nothing, so the preservation claim is trivial.
-/
import proofs.«133802_j63608465654163_1_alg».proof.Defs
import proofs.«133802_j63608465654163_1_alg».proof.Proof.Gen.Kernel
import proofs.«133802_j63608465654163_1_alg».proof.Proof.Gen.Kernel.Skeleton
import proofs.«133802_j63608465654163_1_alg».proof.Proof.Gen.Kernel.Launch
import proofs.«133802_j63608465654163_1_alg».proof.Proof.Gen.Kernel.Points
import proofs.«133802_j63608465654163_1_alg».proof.Proof.Gen.Kernel.Frame
import proofs.«133802_j63608465654163_1_alg».proof.Proof.Gen.KernelIdeal
import proofs.«133802_j63608465654163_1_alg».proof.Proof.Gen.KernelIdeal.Skeleton
import proofs.«133802_j63608465654163_1_alg».proof.Proof.Gen.KernelIdeal.Launch
import proofs.«133802_j63608465654163_1_alg».proof.Proof.Gen.KernelIdeal.Points
import proofs.«133802_j63608465654163_1_alg».proof.Proof.Gen.KernelIdeal.Frame
import proofs.«133802_j63608465654163_1_alg».proof.Proof.Gen.ReferenceIdeal
import proofs.«133802_j63608465654163_1_alg».proof.Proof.Gen.ReferenceIdeal.Run
import proofs.«133802_j63608465654163_1_alg».proof.Proof.Gen.ReferenceIdeal.Read
import proofs.«133802_j63608465654163_1_alg».proof.Proof.Gen.Pre_finite_inputs
import proofs.«133802_j63608465654163_1_alg».proof.Proof.KRun
import proofs.«133802_j63608465654163_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's result function of the (agreeing) arguments: the kernel's
    by the stage-by-stage reading of its buffers, the reference's by its own run. -/
theorem algebraic : Cert.algebraic_KernelIdeal_ReferenceIdeal := by
  intro m ρ m' ρ' _ hagree
  refine ⟨_, Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1,
    (hagree c).2.2.2.2.1, (hagree c).2.2.2.2.2]
  exact (Cert.Bridge.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
